-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x128x256 : Shape := ⟨4, ![1, 16, 128, 256]⟩
abbrev S_ : Shape := ⟨0, ![]⟩

class Facts : Prop where
  bcast_S_S1x16x128x256 : S_.BroadcastsInDim S1x16x128x256 (![] : Fin 0 → Fin S1x16x128x256.rank)
  reducesTo_S1x16x128x256_S_d0_1_2_3 : S1x16x128x256.ReducesTo [0, 1, 2, 3] S_
  h_S_ : 0 < S_.numel

variable [Facts]

def fn {F : FTy → Type} [FloatOps F] (main_arg0 : FVec F S1x16x128x256 .f32) (main_arg1 : FVec F S1x16x128x256 .f32) : IVec S_ 1 :=
  let main_v0 : FVec F S1x16x128x256 .f32 := Host.absf main_arg0
  let main_cst : FVec F S_ .f32 := constant S_ .f32 0x7F800000#32
  let main_v1 : FVec F S1x16x128x256 .f32 := broadcastInDim S1x16x128x256 ![] bcast_S_S1x16x128x256 main_cst
  let main_v2 : IVec S1x16x128x256 1 := cmpf .olt main_v0 main_v1
  let main_c : IVec S_ 1 := constantI S_ 1 1#1
  let main_v3 : IVec S_ 1 := (fun x v => Host.reduce IntOp.andi x v reducesTo_S1x16x128x256_S_d0_1_2_3 h_S_) main_v2 main_c
  let main_v4 : FVec F S1x16x128x256 .f32 := Host.absf main_arg1
  let main_cst_0 : FVec F S_ .f32 := constant S_ .f32 0x7F800000#32
  let main_v5 : FVec F S1x16x128x256 .f32 := broadcastInDim S1x16x128x256 ![] bcast_S_S1x16x128x256 main_cst_0
  let main_v6 : IVec S1x16x128x256 1 := cmpf .olt main_v4 main_v5
  let main_c_1 : IVec S_ 1 := constantI S_ 1 1#1
  let main_v7 : IVec S_ 1 := (fun x v => Host.reduce IntOp.andi x v reducesTo_S1x16x128x256_S_d0_1_2_3 h_S_) main_v6 main_c_1
  let main_v8 : IVec S_ 1 := andi main_v3 main_v7
  main_v8
-- ==== Kernel.lean ====
abbrev S1x16x128x256 : Shape := ⟨4, ![1, 16, 128, 256]⟩
abbrev S16x128x256 : Shape := ⟨3, ![16, 128, 256]⟩
abbrev S_ : Shape := ⟨0, ![]⟩
abbrev S16x256x256 : Shape := ⟨3, ![16, 256, 256]⟩
abbrev S128x16x128x256 : Shape := ⟨4, ![128, 16, 128, 256]⟩
abbrev S1x128x16x128x256 : Shape := ⟨5, ![1, 128, 16, 128, 256]⟩

abbrev nBuf : Space → Nat
  | .hbm => 9
  | .vmem => 4
  | .smem => 0
  | _ => 0

abbrev bufTy : (tb : Table) → Fin (tcTables nBuf tb) → BufTy
  | .hbm, ⟨0, _⟩ => ⟨S1x16x128x256, .f32⟩
  | .hbm, ⟨1, _⟩ => ⟨S1x16x128x256, .f32⟩
  | .hbm, ⟨2, _⟩ => ⟨S16x128x256, .f32⟩
  | .hbm, ⟨3, _⟩ => ⟨S16x128x256, .f32⟩
  | .hbm, ⟨4, _⟩ => ⟨S_, .i32⟩
  | .hbm, ⟨5, _⟩ => ⟨S_, .f32⟩
  | .hbm, ⟨6, _⟩ => ⟨S16x256x256, .f32⟩
  | .hbm, ⟨7, _⟩ => ⟨S128x16x128x256, .f32⟩
  | .hbm, ⟨8, _⟩ => ⟨S1x128x16x128x256, .f32⟩
  | .local _ .vmem, ⟨0, _⟩ => ⟨S16x128x256, .f32⟩
  | .local _ .vmem, ⟨1, _⟩ => ⟨S16x256x256, .f32⟩
  | .local _ .vmem, ⟨2, _⟩ => ⟨S1x16x128x256, .f32⟩
  | .local _ .vmem, ⟨3, _⟩ => ⟨S1x16x128x256, .f32⟩
  | _, _ => ⟨S1x16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let c0 : Index := 0#32
  let c128_i32 : BitVec 32 := 128#32
  let arg0 : BitVec 32 := BitVec.ofNat 32 (i 0).val
  let v0 : BitVec 32 := Scalar.subi c128_i32 arg0
  let v2 : Index := Scalar.indexCast v0
  let c0_0 : Index := 0#32
  ![0, v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S16x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x16x128x256_S16x128x256 : S1x16x128x256.ShapeCasts S16x128x256
  pads_S16x128x256_S16x256x256_000_01280_000 : S16x128x256.Pads (![0, 0, 0] : Fin 3 → Nat) ![0, 128, 0] ![0, 0, 0] S16x256x256
  h_S_ : 0 < S_.numel
  h_S16x128x256 : 0 < S16x128x256.numel
  shapeCasts_S16x128x256_S16x128x256 : S16x128x256.ShapeCasts S16x128x256
  inb_S16x128x256_S16x128x256_0_0_0 : ∀ a, (![0, 0, 0] : Fin 3 → Nat) a + S16x128x256.size a ≤ S16x128x256.size a
  iota_S16x128x256_d1_w32 : S16x128x256.Iotas .tc 32 [1]
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S16x128x256_S1x16x128x256 : S16x128x256.ShapeCasts S1x16x128x256
  bcast_S128x16x128x256_S1x128x16x128x256_1_2_3_4 : S128x16x128x256.BroadcastsInDim S1x128x16x128x256 (![1, 2, 3, 4] : Fin 4 → Fin S1x128x16x128x256.rank)
  hrank0 : 0 < grid0.rank
  k0_off1_inb : ∀ i : grid0.Coords, ∀ a, (k0_off1 i) a + S16x128x256.size a ≤ S16x256x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x128x256.size a ≤ S16x128x256.size a
  hwx0_0 : ∀ i : grid0.Coords, EltTy.bits .f32 = 32 ∨ (Rect.block (s := S16x128x256) S16x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S16x256x256.size a
  hwx0_1 : ∀ i : grid0.Coords, EltTy.bits .f32 = 32 ∨ (Rect.block (s := S16x256x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x256.size a ≤ S128x16x128x256.size a
  hwx0_2 : ∀ i : grid0.Coords, EltTy.bits .f32 = 32 ∨ (Rect.block (s := S128x16x128x256) S1x16x128x256.size (cc0_transform_2 i) (hinb0_2 i)).WholeWords (EltTy.packing .f32)

variable [Facts₀]

abbrev win0_0 : Pipeline.Window sig grid0 :=
  Pipeline.Window.ofSpec (Memref.whole main_v0) S16x128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x128x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x16x128x256 : Shape := ⟨4, ![1, 16, 128, 256]⟩
abbrev S128 : Shape := ⟨1, ![128]⟩
abbrev S_ : Shape := ⟨0, ![]⟩
abbrev S1x16x256x256 : Shape := ⟨4, ![1, 16, 256, 256]⟩
abbrev S1x128 : Shape := ⟨2, ![1, 128]⟩
abbrev S128x1 : Shape := ⟨2, ![128, 1]⟩
abbrev S128x128 : Shape := ⟨2, ![128, 128]⟩
abbrev S128x128x1 : Shape := ⟨3, ![128, 128, 1]⟩
abbrev S1x16x128x128x256 : Shape := ⟨5, ![1, 16, 128, 128, 256]⟩
abbrev S1x1x128x128x1 : Shape := ⟨5, ![1, 1, 128, 128, 1]⟩
abbrev S1x16x1x128x256 : Shape := ⟨5, ![1, 16, 1, 128, 256]⟩
abbrev S1x128x16x128x256 : Shape := ⟨5, ![1, 128, 16, 128, 256]⟩

abbrev nBuf : Space → Nat
  | .hbm => 36
  | .vmem => 0
  | .smem => 0
  | _ => 0

abbrev bufTy : (tb : Table) → Fin (tcTables nBuf tb) → BufTy
  | .hbm, ⟨0, _⟩ => ⟨S1x16x128x256, .f32⟩
  | .hbm, ⟨1, _⟩ => ⟨S1x16x128x256, .f32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S_, .f32⟩
  | .hbm, ⟨9, _⟩ => ⟨S1x16x256x256, .f32⟩
  | .hbm, ⟨10, _⟩ => ⟨S128, .i32⟩
  | .hbm, ⟨11, _⟩ => ⟨S1x128, .i32⟩
  | .hbm, ⟨12, _⟩ => ⟨S128x1, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128x1, .i32⟩
  | .hbm, ⟨24, _⟩ => ⟨S1x16x128x128x256, .f32⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S128x128, .f32⟩
  | .hbm, ⟨29, _⟩ => ⟨S1x1x128x128x1, .f32⟩
  | .hbm, ⟨30, _⟩ => ⟨S1x16x1x128x256, .f32⟩
  | .hbm, ⟨31, _⟩ => ⟨S1x16x128x128x256, .f32⟩
  | .hbm, ⟨32, _⟩ => ⟨S1x16x128x128x256, .f32⟩
  | .hbm, ⟨33, _⟩ => ⟨S1x16x128x128x256, .f32⟩
  | .hbm, ⟨34, _⟩ => ⟨S1x16x128x128x256, .f32⟩
  | .hbm, ⟨35, _⟩ => ⟨S1x128x16x128x256, .f32⟩
  | _, _ => ⟨S1x16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S_S128 : S_.BroadcastsInDim S128 (![] : Fin 0 → Fin S128.rank)
  pads_S1x16x128x256_S1x16x256x256_000_000_01280_000 : S1x16x128x256.Pads (![0, 0, 0, 0] : Fin 4 → Nat) ![0, 0, 128, 0] ![0, 0, 0, 0] S1x16x256x256
  h_S_ : 0 < S_.numel
  bcast_S128_S1x128_1 : S128.BroadcastsInDim S1x128 (![1] : Fin 1 → Fin S1x128.rank)
  bcast_S128_S128x1_0 : S128.BroadcastsInDim S128x1 (![0] : Fin 1 → Fin S128x1.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x128_S1x1x128x128x1_2_3 : S128x128.BroadcastsInDim S1x1x128x128x1 (![2, 3] : Fin 2 → Fin S1x1x128x128x1.rank)
  bcast_S1x16x128x256_S1x16x1x128x256_0_1_3_4 : S1x16x128x256.BroadcastsInDim S1x16x1x128x256 (![0, 1, 3, 4] : Fin 4 → Fin S1x16x1x128x256.rank)
  bcast_S1x16x1x128x256_S1x16x128x128x256_0_1_2_3_4 : S1x16x1x128x256.BroadcastsInDim S1x16x128x128x256 (![0, 1, 2, 3, 4] : Fin 5 → Fin S1x16x128x128x256.rank)
  bcast_S1x1x128x128x1_S1x16x128x128x256_0_1_2_3_4 : S1x1x128x128x1.BroadcastsInDim S1x16x128x128x256 (![0, 1, 2, 3, 4] : Fin 5 → Fin S1x16x128x128x256.rank)
  transposes_S1x16x128x128x256_S1x128x16x128x256_0_2_1_3_4 : S1x16x128x128x256.Transposes [0, 2, 1, 3, 4] S1x128x16x128x256
  gather_S1x16x256x256_S128x128x1_S1x16x128x128x256_014_2_n_n_2_2_1161256_wf : GatherDims.WF S1x16x256x256 S128x128x1 S1x16x128x128x256 [0, 1, 4] [2] [] [2] [] 2 ![1, 16, 1, 256]

variable [Facts₀]

def gather_S1x16x256x256_S128x128x1_S1x16x128x128x256_014_2_n_n_2_2_1161256 : GatherDims S1x16x256x256 S128x128x1 S1x16x128x128x256 where
  offsetDims := [0, 1, 4]
  collapsedSliceDims := [2]
  operandBatchingDims := []
  startIndicesBatchingDims := []
  startIndexMap := [2]
  indexVectorDim := 2
  sliceSizes := ![1, 16, 1, 256]
  wf := gather_S1x16x256x256_S128x128x1_S1x16x128x128x256_014_2_n_n_2_2_1161256_wf

class Facts : Prop extends Facts₀ where

variable [Facts]
-- ==== Proof.Words.lean ====
/-
  The 32-bit integer arithmetic both programs do on the disparity `d` and the row `h` (both below 128),
  as facts about natural numbers.

  The kernel computes the row offset `128 - d` of its slab of the padded array and compares the row
  number `h` with `0 + d` (signed). The reference computes `h + -(-128 + d)` in two's complement,
  which is `h + 128 - d` (a number in `[1, 255]`): it is not negative, it is its own signed reading,
  and it is below `128` exactly when `h < d`. So the two masks are the same condition `h < d`.
-/
import Idealize.ShloMosaic.PureOps.Ideal

namespace Cert.CostDiff.Words

open Idealize.ShloMosaic

/-- The kernel's slab starts at row `128 - d` of the padded array. -/
theorem slab_start : ∀ d < 128, (Scalar.indexCast (Scalar.subi 128#32 (BitVec.ofNat 32 d))).toNat = 128 - d := by
  decide +kernel

/-- The kernel's mask at row `h`, disparity `d`: the signed comparison `h < 0 + d` is `h < d`. -/
theorem kernel_mask : ∀ d < 128, ∀ h < 128,
    IntOp.cmpi .slt (BitVec.ofNat 32 h) (Scalar.addi 0#32 (BitVec.ofNat 32 d)) = if h < d then 1#1 else 0#1 := by
  decide +kernel

/-- The reference's shifted row `h + -(-128 + d)`, in two's complement, is the word of `h + 128 - d`. -/
theorem shifted_row : ∀ d < 128, ∀ h < 128,
    IntOp.addi (BitVec.ofNat 32 h) (-(IntOp.addi 4294967168#32 (BitVec.ofNat 32 d))) = BitVec.ofNat 32 (h + 128 - d) := by
  decide +kernel

/-- A row number below 256 is not negative as a signed word … -/
theorem not_neg : ∀ n < 256, IntOp.cmpi .slt (BitVec.ofNat 32 n) 0#32 = 0#1 := by decide +kernel

/-- … and its signed reading is itself. -/
theorem toInt_toNat : ∀ n < 256, (BitVec.ofNat 32 n).toInt.toNat = n := by decide +kernel

/-- The reference's mask: the shifted row is below `128` exactly when `h < d`. -/
theorem reference_mask : ∀ d < 128, ∀ h < 128,
    IntOp.cmpi .slt (BitVec.ofNat 32 (h + 128 - d)) 128#32 = if h < d then 1#1 else 0#1 := by
  decide +kernel

end Cert.CostDiff.Words
-- ==== Proof.KernelBody.lean ====
/-
  What the kernel's body leaves in the output block at one grid point.

  At the point with disparity `d` (the grid coordinate) the body reads the whole left block `x0`
  [16, 128, 256] and, from the padded right block `x1` [16, 256, 256], the slab of 128 rows that starts at
  row `128 - d`; it subtracts the slab from the left block, keeps the difference where the row number
  `h` is below `d` and puts 0 elsewhere, and stores the result as the [1, 16, 128, 256] output block.
  Its one store covers the block, so the block ends holding the stored value (`piece`), and that value at
  (0, c, h, w) is

      x0[c, h, w] - x1[c, h + 128 - d, w]   if h < d,      0   otherwise        (`body_apply`).

  The comparison is the signed 32-bit one between `h` and `0 + d`, which for numbers below 128 is `h < d`.
-/
import proofs.«159724_j61495341744708_1_alg».proof.Proof.Gen.KernelIdeal.Frame
import proofs.«159724_j61495341744708_1_alg».proof.Proof.Words
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The slab of the padded block the body loads: 128 rows from row `128 - d`, all channels and columns. -/
abbrev slab (i : grid0.Coords) : Rect S16x256x256 :=
  Rect.unit (s := S16x256x256) (k0_off1 i) S16x128x256.size (k0_off1_inb i)

/-- The output block after the body: its one store covers the block, so the block holds the stored value, computed
    from the slab of the padded block and the whole left block. For any float values. -/
theorem piece {F : FTy → Type} [FloatOps F] (c : Dev nD) (i : grid0.Coords)
    (a1 : Memref sig .tc .vmem S16x128x256 .f32) (h1 : a1.IsWhole)
    (a2 : Memref sig .tc .vmem S16x256x256 .f32) (h2 : a2.IsWhole)
    (a3 : Memref sig .tc .vmem S1x16x128x256 .f32) (h3 : a3.IsWhole)
    (x0 : Vec F S16x128x256 .f32) (x1 : Vec F S16x256x256 .f32) :
    out0_A_2 c i a1 h1 a2 h2 a3 h3 x0 x1 = k0_pay1 i (View.ld x1 (slab i)) x0 := by
  unfold out0_A_2
  rw [View.read_writes_eq_canon _ _ _ (cover0_A_2 c i a1 h1 a2 h2 a3 h3 x0 x1)]
  unfold kernelRun0_A
  dsimp only
  rw [View.canon_unit_zero hz4]
  simp only [View.readAt_eq_ld, h1.read_unread, h2.read_unread, View.ld_unit_zero (S := S16x128x256) hz3]

/-- The stored value at (0, c, h, w), from the loaded slab `v3` and left block `v5`: their difference where
    `h < d`, zero elsewhere. -/
theorem payload_apply (i : grid0.Coords) (v3 v5 : Vec Ideal S16x128x256 .f32) (z : Fin 1) (c : Fin 16) (h : Fin 128)
    (w : Fin 256) :
    k0_pay1 (F := Ideal) i v3 v5 (ix4 z c h w) = if h.val < (i 0).val then v5 (ix3 c h w) - v3 (ix3 c h w) else 0 := by
  unfold k0_pay1
  refine (shapeCast_addUnit_apply ![16, 128, 256] _ _ (ix4 z c h w)).trans ?_
  have e : (fun a : Fin 3 => (ix4 z c h w) a.succ) = ix3 c h w :=
    funext fun a => by match a with | ⟨0, _⟩ => rfl | ⟨1, _⟩ => rfl | ⟨2, _⟩ => rfl
  rw [e, select_apply]
  have hm : cmpi CmpIPredicate.slt (iota Kind.tc S16x128x256 32 [1] iota_S16x128x256_d1_w32)
      (broadcast S16x128x256 (Scalar.addi (0#32) (BitVec.ofNat 32 (i 0).val))) (ix3 c h w)
      = if h.val < (i 0).val then 1#1 else 0#1 := by
    show IntOp.cmpi .slt (iota Kind.tc S16x128x256 32 [1] iota_S16x128x256_d1_w32 (ix3 c h w))
      (Scalar.addi 0#32 (BitVec.ofNat 32 (i 0).val)) = _
    rw [iota_single_apply]
    exact Cert.CostDiff.Words.kernel_mask (i 0).val (i 0).isLt h.val h.isLt
  rw [hm]
  by_cases hlt : h.val < (i 0).val
  · rw [if_pos hlt, if_pos hlt, select_one]
    show shapeCast S16x128x256 v5 _ (ix3 c h w) - shapeCast S16x128x256 v3 _ (ix3 c h w) = _
    rw [shapeCast_self, shapeCast_self]
  · rw [if_neg hlt, if_neg hlt, select_zero]
    exact Ideal.ofBits_zero_f32

/-- Row `h` of the slab is row `h + 128 - d` of the padded block. -/
theorem slab_idx (i : grid0.Coords) (c : Fin 16) (h : Fin 128) (w : Fin 256) :
    (slab i).idx (ix3 c h w)
      = ix3 c (⟨h.val + 128 - (i 0).val, by have := h.isLt; have := (i 0).isLt; omega⟩ : Fin 256) w := by
  have hd : (i 0).val < 128 := (i 0).isLt
  funext a
  apply Fin.ext
  match a with
  | ⟨0, h0⟩ =>
    rw [LoadRect.idx_apply]
    show k0_off1 i (⟨0, h0⟩ : Fin 3) + 1 * c.val = c.val
    rw [k0_off1_eq i]; show 0 + 1 * c.val = c.val; omega
  | ⟨1, h1⟩ =>
    rw [LoadRect.idx_apply]
    show k0_off1 i (⟨1, h1⟩ : Fin 3) + 1 * h.val = h.val + 128 - (i 0).val
    rw [k0_off1_eq i]; show 128 - (i 0).val + 1 * h.val = h.val + 128 - (i 0).val; omega
  | ⟨2, h2⟩ =>
    rw [LoadRect.idx_apply]
    show k0_off1 i (⟨2, h2⟩ : Fin 3) + 1 * w.val = w.val
    rw [k0_off1_eq i]; show 0 + 1 * w.val = w.val; omega

/-- THE BODY'S RESULT at (0, c, h, w), from the whole left block `x0` and the whole padded block `x1`. -/
theorem body_apply (i : grid0.Coords) (x0 : Vec Ideal S16x128x256 .f32) (x1 : Vec Ideal S16x256x256 .f32) (z : Fin 1)
    (c : Fin 16) (h : Fin 128) (w : Fin 256) :
    k0_pay1 (F := Ideal) i (View.ld x1 (slab i)) x0 (ix4 z c h w)
      = if h.val < (i 0).val then
          x0 (ix3 c h w)
            - x1 (ix3 c (⟨h.val + 128 - (i 0).val, by have := h.isLt; have := (i 0).isLt; omega⟩ : Fin 256) w)
        else 0 := by
  rw [payload_apply]
  show (if h.val < (i 0).val then x0 (ix3 c h w) - x1 ((slab i).idx (ix3 c h w)) else 0) = _
  rw [slab_idx]

end Cert.KernelIdeal.Body

end
-- ==== Proof.Spec.lean ====
/-
  The result both programs compute, as one function of the two argument arrays `left` and `right`
  (each [1, 16, 128, 256]: one image, 16 channels, 128 rows, 256 columns).

  For disparity `d` in [0, 128) the right image is shifted up by `128 - d` rows and subtracted from the
  left one; rows the shift pushes past the bottom edge give 0:

      cost d c h w = left[0, c, h, w] - rightPad[c, h + 128 - d, w]   if h < d
                   = 0                                                 otherwise

  where `rightPad` is `right` with 128 rows of zeros appended below (so every shifted row number
  `h + 128 - d`, which lies in [1, 255], is a row of it). When `h < d` the shifted row is below 128 and
  `rightPad` reads `right` itself. The result array is [1, 128, 16, 128, 256], indexed (0, d, c, h, w).

  One program selects with the condition `h < d`; the other multiplies the difference by the condition
  as a number, 1 or 0. On the extended reals `1 * x = x` and `0 * x = 0` for EVERY `x`, infinite ones
  included, so the two agree with no assumption on the inputs (`mask_mul`).
-/
import Idealize.ShloMosaic.PureOps.Ideal
import Idealize.ShloMosaic.Lib.ValueIdx

noncomputable section

namespace Cert.CostDiff

open Idealize.ShloMosaic Idealize.ShloMosaic.ValueIdx

/-- An argument array: [1, 16, 128, 256] extended reals. -/
abbrev Arg : Type := (⟨4, ![1, 16, 128, 256]⟩ : Shape).Idx → EReal

/-- `right` with 128 rows of zeros appended below: row `r < 128` is `right`'s row `r`, rows 128 … 255 are 0. -/
def rightPad (right : Arg) (c : Fin 16) (r : Fin 256) (w : Fin 256) : EReal :=
  if hr : r.val < 128 then right (ix4 (0 : Fin 1) c (⟨r.val, hr⟩ : Fin 128) w) else 0

/-- The row of the padded array that row `h` meets at disparity `d`: `h + 128 - d`. -/
def shiftRow (d h : Fin 128) : Fin 256 := ⟨h.val + 128 - d.val, by have := d.isLt; have := h.isLt; omega⟩

/-- The cost at disparity `d`, channel `c`, row `h`, column `w`. -/
def cost (left right : Arg) (d : Fin 128) (c : Fin 16) (h : Fin 128) (w : Fin 256) : EReal :=
  if h.val < d.val then left (ix4 (0 : Fin 1) c h w) - rightPad right c (shiftRow d h) w else 0

/-- The costs as the kernel's region writes them, [128, 16, 128, 256], at (d, c, h, w): one [16, 128, 256] block per
    disparity. The host then only adds the leading unit axis. -/
def costRows (left right : Arg) : (⟨4, ![128, 16, 128, 256]⟩ : Shape).Idx → EReal :=
  fun i => cost left right (i 0) (i 1) (i 2) (i 3)

/-- The whole result, [1, 128, 16, 128, 256], at (0, d, c, h, w). -/
def costDiff (left right : Arg) : (⟨5, ![1, 128, 16, 128, 256]⟩ : Shape).Idx → EReal :=
  fun j => cost left right (j 1) (j 2) (j 3) (j 4)

/-- The condition as a number (1 when it holds, 0 when not) times `x` is `x` when it holds and `0` when
    not — for every extended real `x`. -/
theorem mask_mul (p : Prop) [Decidable p] (x : EReal) :
    ((((if p then 1#1 else 0#1 : BitVec 1).toNat : ℕ) : ℝ) : EReal) * x = if p then x else 0 := by
  by_cases hp : p
  · rw [if_pos hp, if_pos hp]; simp
  · rw [if_neg hp, if_neg hp]; simp

end Cert.CostDiff

end
-- ==== Proof.LibPadIdx.lean ====
/-
  A `stablehlo.pad` that pads only AFTER the data (no low padding, no interior padding), read at an index.

  Such a pad keeps every element of the operand at its own coordinates and fills the rest of the larger
  array with the padding value. So at an index whose every coordinate is inside the operand's extents the
  result is the operand at the same coordinates (`pad_high_apply_inside`), and at an index with some
  coordinate at or beyond the operand's extent on that axis it is the padding value
  (`pad_high_apply_beyond`). Both hold for any shapes, any rank and any element type.
-/
import Idealize.ShloMosaic.PureOps.Ideal

namespace Cert.LibPadIdx

open Idealize.ShloMosaic

variable {s t u : Shape} {α : Type}

/-- Inside the operand's extent on every axis, a pad with no low and no interior padding reads the operand
    at the same coordinates: `k` is the operand index with `j`'s coordinates. -/
theorem pad_high_apply_inside (lo hi interior : Fin s.rank → Nat) (x : s.Idx → α) (v : u.Idx → α)
    (h : s.Pads lo hi interior t) (hu : 0 < u.numel) (hlo : ∀ a, lo a = 0) (hint : ∀ a, interior a = 0)
    (j : t.Idx) (k : s.Idx) (hk : ∀ a : Fin s.rank, (k a).val = (j (a.cast h.1)).val) :
    pad t lo hi interior x v h hu j = x k := by
  have hcond : ∀ a : Fin s.rank, lo a ≤ (j (a.cast h.1)).val
      ∧ ((j (a.cast h.1)).val - lo a) % (interior a + 1) = 0
      ∧ ((j (a.cast h.1)).val - lo a) / (interior a + 1) < s.size a := by
    intro a
    rw [hlo a, hint a, ← hk a, Nat.sub_zero, Nat.zero_add, Nat.div_one]
    exact ⟨Nat.zero_le _, Nat.mod_one _, (k a).isLt⟩
  unfold pad
  rw [dif_pos hcond]
  refine congrArg x (funext fun a => Fin.ext ?_)
  show ((j (a.cast h.1)).val - lo a) / (interior a + 1) = (k a).val
  rw [hlo a, hint a, hk a, Nat.sub_zero, Nat.zero_add, Nat.div_one]

/-- At or beyond the operand's extent on some axis `a`, such a pad reads the padding value. -/
theorem pad_high_apply_beyond (lo hi interior : Fin s.rank → Nat) (x : s.Idx → α) (v : u.Idx → α)
    (h : s.Pads lo hi interior t) (hu : 0 < u.numel) (hlo : ∀ a, lo a = 0) (hint : ∀ a, interior a = 0)
    (j : t.Idx) (a : Fin s.rank) (ha : s.size a ≤ (j (a.cast h.1)).val) :
    pad t lo hi interior x v h hu j = v (Shape.Idx.first hu) := by
  unfold pad
  rw [dif_neg]
  intro hc
  have h2 := (hc a).2.2
  rw [hlo a, hint a, Nat.sub_zero, Nat.zero_add, Nat.div_one] at h2
  omega

end Cert.LibPadIdx
-- ==== Proof.KernelEntry.lean ====
/-
  The two arrays the kernel's region finds when it starts, read at an index.

  Before the region the host drops the leading unit axis of each argument ([1, 16, 128, 256] to [16, 128, 256])
  and appends 128 rows of the converted integer 0 below the right one. So the first input array at (c, h, w) is
  `left[0, c, h, w]` (`left_apply`), and the second, [16, 256, 256], at (c, r, w) is `rightPad right c r w`:
  `right[0, c, r, w]` for `r < 128` and 0 from row 128 on (`rightpad_apply`).
-/
import proofs.«159724_j61495341744708_1_alg».proof.Proof.Gen.KernelIdeal.Frame
import proofs.«159724_j61495341744708_1_alg».proof.Proof.Spec
import proofs.«159724_j61495341744708_1_alg».proof.Proof.LibPadIdx
import Idealize.ShloMosaic.Lib.Pipeline.Value
import Idealize.ShloMosaic.Lib.StableHlo.Run
import Idealize.ShloMosaic.Lib.Tactic
import Idealize.ShloMosaic.Lib.ValueIdx
import Idealize.ShloMosaic.PureOps.Ideal

set_option maxRecDepth 16384

noncomputable section

open Idealize.ShloMosaic Idealize.ShloMosaic.TcCoe Idealize.SL.Sem Idealize.ShloMosaic.StableHlo
open Idealize.ShloMosaic.ValueIdx

namespace Cert.KernelIdeal.Entry

open Cert.KernelIdeal Cert.KernelIdeal.Gen Cert.CostDiff

variable (m : (ℓ : Loc nD τ sig) → Buf (Elt Ideal) ℓ)

/-- The first input array is the left argument with its unit axis dropped. -/
theorem entry_left (c : Dev nD) : (V m c main_v0 : S16x128x256.Idx → EReal)
    = shapeCast S16x128x256 (m ((c : Thread nD τ).loc main_arg0)) shapeCasts_S1x16x128x256_S16x128x256 := by
  dsimp only [Gen.V, Gen.V0]
  simp only [Gen.hostOps0, Gen.hostOps0_1, List.flatten_cons, List.flatten_nil, List.append_nil, List.cons_append,
    List.nil_append]
  after_results
  rfl

/-- The second input array is the right argument with its unit axis dropped, padded below with the converted integer 0. -/
theorem entry_rightpad (c : Dev nD) : (V m c main_v2 : S16x256x256.Idx → EReal)
    = pad S16x256x256 ![0, 0, 0] ![0, 128, 0] ![0, 0, 0]
        (shapeCast S16x128x256 (m ((c : Thread nD τ).loc main_arg1)) shapeCasts_S1x16x128x256_S16x128x256)
        (sitofp (F := Ideal) .f32 (constantI S_ 32 0#32)) pads_S16x128x256_S16x256x256_000_01280_000 h_S_ := by
  dsimp only [Gen.V, Gen.V0]
  simp only [Gen.hostOps0, Gen.hostOps0_1, List.flatten_cons, List.flatten_nil, List.append_nil, List.cons_append,
    List.nil_append]
  after_results
  rfl

/-- Dropping the leading unit axis: (c, r, w) of the [16, 128, 256] array is (0, c, r, w) of the argument. -/
theorem drop_unit (x : Arg) (cc : Fin 16) (r : Fin 128) (w : Fin 256) :
    shapeCast S16x128x256 x shapeCasts_S1x16x128x256_S16x128x256 (ix3 cc r w) = x (ix4 (0 : Fin 1) cc r w) := by
  refine (shapeCast_dropUnit_apply ![16, 128, 256] x _ (ix3 cc r w)).trans ?_
  exact congrArg x (funext fun a => by match a with | ⟨0, _⟩ => rfl | ⟨1, _⟩ => rfl | ⟨2, _⟩ => rfl | ⟨3, _⟩ => rfl)

/-- The first input array at (c, h, w) is `left[0, c, h, w]`. -/
theorem left_apply (c : Dev nD) (cc : Fin 16) (h : Fin 128) (w : Fin 256) :
    (V m c main_v0 : S16x128x256.Idx → EReal) (ix3 cc h w) = m ((c : Thread nD τ).loc main_arg0) (ix4 (0 : Fin 1) cc h w) := by
  rw [entry_left]
  exact drop_unit _ cc h w

/-- The second input array at (c, r, w) is the padded right image there. -/
theorem rightpad_apply (c : Dev nD) (cc : Fin 16) (r : Fin 256) (w : Fin 256) :
    (V m c main_v2 : S16x256x256.Idx → EReal) (ix3 cc r w) = rightPad (m ((c : Thread nD τ).loc main_arg1)) cc r w := by
  rw [entry_rightpad]
  unfold rightPad
  by_cases hr : r.val < 128
  · rw [dif_pos hr]
    refine (LibPadIdx.pad_high_apply_inside _ _ _ _ _ _ _ (fun a => by fin_cases a <;> rfl) (fun a => by fin_cases a <;> rfl)
      (ix3 cc r w) (ix3 cc (⟨r.val, hr⟩ : Fin 128) w)
      (fun a => by match a with | ⟨0, _⟩ => rfl | ⟨1, _⟩ => rfl | ⟨2, _⟩ => rfl)).trans ?_
    exact drop_unit _ cc ⟨r.val, hr⟩ w
  · rw [dif_neg hr]
    refine (LibPadIdx.pad_high_apply_beyond _ _ _ _ _ _ _ (fun a => by fin_cases a <;> rfl) (fun a => by fin_cases a <;> rfl)
      (ix3 cc r w) (⟨1, by decide⟩ : Fin 3) (by show 128 ≤ r.val; omega)).trans ?_
    show ((((0#32 : BitVec 32).toInt : ℤ) : ℝ) : EReal) = 0
    simp

end Cert.KernelIdeal.Entry

end
-- ==== Proof.KernelArray.lean ====
/-
  From the blocks to the array: the kernel's region leaves `costRows left right` in its output array.

  The grid has 128 points, one per disparity `d`. At every point the two input windows show their WHOLE arrays
  (their block index is always (0, 0, 0)): the left image, and the right image padded below. The output window shows
  block `d` of the [128, 16, 128, 256] output: the rows (d, ·, ·, ·). So what point `d` writes back is the body's
  result on the whole inputs, which at (0, c, h, w) is `cost left right d c h w` (`point_value`) — block `d` of
  `costRows` (`flushed_eq`). Every index (d, c, h, w) of the output lies in the block of point `d` (`cover`), so
  the array after the run is `costRows` (`final`).
-/
import proofs.«159724_j61495341744708_1_alg».proof.Proof.KernelBody
import proofs.«159724_j61495341744708_1_alg».proof.Proof.KernelEntry
import proofs.«159724_j61495341744708_1_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.CostDiff

variable (m : (ℓ : Loc nD τ sig) → Buf (Elt Ideal) ℓ)

/-- The left argument, as launched on core `c`. -/
abbrev left (c : Dev nD) : Arg := m ((c : Thread nD τ).loc main_arg0)
/-- The right argument, as launched on core `c`. -/
abbrev right (c : Dev nD) : Arg := m ((c : Thread nD τ).loc main_arg1)

/-- A grid point's disparity. -/
def disp (t : Fin cfg0.N) : Fin 128 := ⟨t.val, by have h := t.isLt; have e : cfg0.N = 128 := N_0; omega⟩

/-- The index maps, decided over the 128 points: both input windows stay at block (0, 0, 0); the output window is at
    block (t, 0, 0, 0); and the point's grid coordinate is its number. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 ∧ (grid0.coords t 0).val = t.val :=
  (by decide +kernel : ∀ t : Fin grid0.N, _)

/-- The left window's block at any point, at (c, h, w), is `left[0, c, h, w]`. -/
theorem left_block (c : Dev nD) (t : Fin cfg0.N) (cc : Fin 16) (h : Fin 128) (w : Fin 256) :
    iblk m c 0 t (ix3 cc h w) = left m c (ix4 (0 : Fin 1) cc h w) := by
  obtain ⟨e0, e1, e2, -⟩ := idx_facts t
  show (V m c main_v0 : S16x128x256.Idx → EReal) (((cfg0.win 0).blk t).view.emb (ix3 cc h w)) = _
  have he : ((cfg0.win 0).blk t).view.emb (ix3 cc h w) = ix3 cc h w := by
    funext a; apply Fin.ext
    match a with
    | ⟨0, _⟩ => show win0_0.index t (0 : Fin 3) * 16 + 1 * cc.val = cc.val; omega
    | ⟨1, _⟩ => show win0_0.index t (1 : Fin 3) * 128 + 1 * h.val = h.val; omega
    | ⟨2, _⟩ => show win0_0.index t (2 : Fin 3) * 256 + 1 * w.val = w.val; omega
  rw [he]
  exact Entry.left_apply m c cc h w

/-- The padded window's block at any point, at (c, r, w), is the padded right image there. -/
theorem padded_block (c : Dev nD) (t : Fin cfg0.N) (cc : Fin 16) (r : Fin 256) (w : Fin 256) :
    iblk m c 1 t (ix3 cc r w) = rightPad (right m c) cc r w := by
  obtain ⟨-, -, -, e0, e1, e2, -⟩ := idx_facts t
  show (V m c main_v2 : S16x256x256.Idx → EReal) (((cfg0.win 1).blk t).view.emb (ix3 cc r w)) = _
  have he : ((cfg0.win 1).blk t).view.emb (ix3 cc r w) = ix3 cc r w := by
    funext a; apply Fin.ext
    match a with
    | ⟨0, _⟩ => show win0_1.index t (0 : Fin 3) * 16 + 1 * cc.val = cc.val; omega
    | ⟨1, _⟩ => show win0_1.index t (1 : Fin 3) * 256 + 1 * r.val = r.val; omega
    | ⟨2, _⟩ => show win0_1.index t (2 : Fin 3) * 256 + 1 * w.val = w.val; omega
  rw [he]
  exact Entry.rightpad_apply m c cc r w

/-- WHAT POINT `t` LEAVES in the output block, at (0, c, h, w): the cost at disparity `t`. -/
theorem point_value (c : Dev nD) (t : Fin cfg0.N) (z : Fin 1) (cc : Fin 16) (h : Fin 128) (w : Fin 256) :
    outsAt0 m c t (ix4 z cc h w) = cost (left m c) (right m c) (disp t) cc h w := by
  obtain ⟨-, -, -, -, -, -, -, -, -, -, ed⟩ := idx_facts t
  have hh := h.isLt
  have ht : t.val < 128 := (disp t).isLt
  unfold outsAt0
  rw [Body.piece (F := Ideal) c (grid0.coords t) (ms0_0 t) (hs0_0 t) (ms0_1 t) (hs0_1 t) (ms0_2 t) (hs0_2 t)
    (iblk m c 0 t) (iblk m c 1 t)]
  refine (Body.body_apply (grid0.coords t) (iblk m c 0 t) (iblk m c 1 t) z cc h w).trans ?_
  have hrow : (⟨h.val + 128 - (grid0.coords t 0).val, by rw [ed]; omega⟩ : Fin 256) = shiftRow (disp t) h :=
    Fin.ext (by show h.val + 128 - (grid0.coords t 0).val = h.val + 128 - t.val; rw [ed])
  rw [left_block m c t cc h w, padded_block m c t cc _ w, hrow, ed]
  rfl

/-- WHAT POINT `t` WRITES BACK is block `t` of `costRows`. -/
theorem flushed_eq (c : Dev nD) (t : Fin cfg0.N) :
    (dats m 0 c).flushed 2 t = ((cfg0.win 2).blk t).view.read (Elt Ideal) (costRows (left m c) (right m c)) := by
  show (cfg0.win 2).cut (grid0.coords t) ((dats m 0 c).after 2 t) = _
  rw [after0_2]
  obtain ⟨-, -, -, -, -, -, e0, e1, e2, e3, -⟩ := idx_facts t
  funext j
  obtain ⟨z, cc, h, w, rfl⟩ : ∃ (z : Fin 1) (cc : Fin 16) (h : Fin 128) (w : Fin 256), j = ix4 z cc h w :=
    ⟨j 0, j 1, j 2, j 3, eq_ix4 j⟩
  show outsAt0 m c t (ix4 z cc h w) = costRows (left m c) (right m c) (((cfg0.win 2).blk t).view.emb (ix4 z cc h w))
  have he : ((cfg0.win 2).blk t).view.emb (ix4 z cc h w) = ix4 (disp t) cc h w := by
    have hz := z.isLt
    funext a; apply Fin.ext
    match a with
    | ⟨0, _⟩ => show win0_2.index t (0 : Fin 4) * 1 + 1 * z.val = t.val; omega
    | ⟨1, _⟩ => show win0_2.index t (1 : Fin 4) * 16 + 1 * cc.val = cc.val; omega
    | ⟨2, _⟩ => show win0_2.index t (2 : Fin 4) * 128 + 1 * h.val = h.val; omega
    | ⟨3, _⟩ => show win0_2.index t (3 : Fin 4) * 256 + 1 * w.val = w.val; omega
  rw [he, point_value m c t z cc h w]
  rfl

/-- An index of the output array is in point `t`'s block iff each coordinate is in the block's range on its axis. -/
theorem mem_blk (t : Fin cfg0.N) (i : S128x16x128x256.Idx) :
    i ∈ ((cfg0.win 2).blk t).view.set ↔ ∀ a : Fin 4, win0_2.index t a * S1x16x128x256.size a ≤ (i a).val
      ∧ (i a).val < win0_2.index t a * S1x16x128x256.size a + S1x16x128x256.size a := by
  show i ∈ ((View.whole main_v3).slice (win0_2.rect t)).set ↔ _
  rw [View.set_slice_whole, Rect.mem_set_unit]
  exact Iff.rfl

/-- Every index (d, c, h, w) of the output array is in the block of point `d`. -/
theorem cover (i : S128x16x128x256.Idx) :
    ∃ t : Fin cfg0.N, (cfg0.win 2).flush t = true ∧ i ∈ ((cfg0.win 2).blk t).view.set := by
  have hN : cfg0.N = 128 := N_0
  have hi0 : (i 0).val < 128 := (i 0).isLt
  have hi1 : (i 1).val < 16 := (i 1).isLt
  have hi2 : (i 2).val < 128 := (i 2).isLt
  have hi3 : (i 3).val < 256 := (i 3).isLt
  obtain ⟨t, ht⟩ : ∃ t : Fin cfg0.N, t.val = (i 0).val := ⟨⟨(i 0).val, by omega⟩, rfl⟩
  obtain ⟨-, -, -, -, -, -, e0, e1, e2, e3, -⟩ := idx_facts t
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 16 ≤ (i 1).val ∧ (i 1).val < win0_2.index t (1 : Fin 4) * 16 + 16
    omega
  | ⟨2, _⟩ =>
    show win0_2.index t (2 : Fin 4) * 128 ≤ (i 2).val ∧ (i 2).val < win0_2.index t (2 : Fin 4) * 128 + 128
    omega
  | ⟨3, _⟩ =>
    show win0_2.index t (3 : Fin 4) * 256 ≤ (i 3).val ∧ (i 3).val < win0_2.index t (3 : Fin 4) * 256 + 256
    omega

/-- THE OUTPUT ARRAY after the run is `costRows` of the two arguments. -/
theorem final (c : Dev nD) : (dats m 0 c).arrAt 2 cfg0.N = costRows (left m c) (right m c) :=
  (dats m 0 c).arrAt_eq_of_cover 2 (costRows (left m c) (right m c)) (fun t _ => flushed_eq m c t) cover

end Cert.KernelIdeal.Blocks

end
-- ==== Proof.KernelRun.lean ====
/-
  The kernel program's run: its result array ends at `costDiff left right`.

  After the region the host does one thing: it gives the [128, 16, 128, 256] output a leading unit axis. Reading the
  result at (0, d, c, h, w) is reading the region's output at (d, c, h, w) (`add_unit`), and the region's output
  is `costRows`; so the result is `costDiff` (`tail_eq`). The run itself — every weakly fair execution
  terminates, nothing faults, the arguments end unchanged — is the generated frame run, whose post names the result
  buffer as the host's last line applied to the region's output array.
-/
import proofs.«159724_j61495341744708_1_alg».proof.Proof.KernelArray
import Idealize.ShloMosaic.Lib.StableHlo.Run

set_option maxRecDepth 16384

noncomputable section

open Idealize.ShloMosaic Idealize.ShloMosaic.TcCoe Idealize.SL.Sem Idealize.ShloMosaic.StableHlo
open Idealize.ShloMosaic.ValueIdx
open Idealize.ShloMosaic.Pipeline (Dat)

namespace Cert.KernelIdeal.Run

open Cert.KernelIdeal Cert.KernelIdeal.Gen Cert.CostDiff Cert.KernelIdeal.Blocks

variable (m : (ℓ : Loc nD τ sig) → Buf (Elt Ideal) ℓ) (ρ : Dev nD → PrngReg)

/-- Adding the leading unit axis: (0, d, c, h, w) of the result is (d, c, h, w) of the region's output. -/
theorem add_unit (l r : Arg) :
    broadcastInDim S1x128x16x128x256 ![1, 2, 3, 4] bcast_S128x16x128x256_S1x128x16x128x256_1_2_3_4 (costRows l r)
      = costDiff l r := by
  funext j
  refine (broadcastInDim_apply _ bcast_S128x16x128x256_S1x128x16x128x256_1_2_3_4 (costRows l r) j
    (ix4 (j 1) (j 2) (j 3) (j 4)) (fun a => by
      match a with
      | ⟨0, _⟩ => show (j 1).val = if (128 : Nat) = 1 then 0 else (j 1).val; rw [if_neg (by decide)]
      | ⟨1, _⟩ => show (j 2).val = if (16 : Nat) = 1 then 0 else (j 2).val; rw [if_neg (by decide)]
      | ⟨2, _⟩ => show (j 3).val = if (128 : Nat) = 1 then 0 else (j 3).val; rw [if_neg (by decide)]
      | ⟨3, _⟩ => show (j 4).val = if (256 : Nat) = 1 then 0 else (j 4).val; rw [if_neg (by decide)])).trans ?_
  rfl

/-- The result buffer after the host's last line: `costDiff` of the two arguments. -/
theorem tail_eq (c : Dev nD) :
    Pipeline.afterTail₀ cfgs (dats m) 0 (V0 m) [hostOps1] c main_v4 = costDiff (left m c) (right m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v3) = costRows (left m c) (right m c) :=
    (Pipeline.withArrays_arr spec0 launch0.win.arr_inj c _ _ 2).trans (final m c)
  rw [hw]
  exact add_unit _ _

/-- THE RUN, READ: every weakly fair execution terminates without a fault, the result at `costDiff` of the arguments
    as launched, the arguments unchanged. -/
theorem run : θ_run defs (onTc (τ := τ) (main (F := Ideal))) ⟨m, fun _ => 0, ρ⟩ fun r => ∀ c : Dev nD,
      r.2.mem ((c : Thread nD τ).loc main_v4) = costDiff (left m c) (right m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run

end
-- ==== Proof.LibGatherRows.lean ====
/-
  A `stablehlo.gather` that picks whole rows along axis 2 of a rank-4 array, read at an index.

  What `x[:, :, idx, :]` lowers to for `x : [A, B, N, D]` and an integer array `idx : [R, C]`: a gather
  with offset_dims [0, 1, 4], collapsed_slice_dims [2], start_index_map [2], index_vector_dim 2 and
  slice_sizes [A, B, 1, D] over the indices as [R, C, 1]; the result is [A, B, R, C, D]. Its element
  (a, b, r, q, e) is `x` at (a, b, n, e) where `n` is the start index `idx[r, q, 0]` read as a signed
  integer and clamped into [0, N - 1], as the gather clamps every start index. For any extents.
-/
import Idealize.ShloMosaic.Lib.ValueIdx

namespace Cert.LibGatherRows

open Idealize.ShloMosaic Idealize.ShloMosaic.ValueIdx

variable {α : Type}

/-- The operand's axes other than the gathered one, in order: 0, 1, 3. -/
theorem kept_axes : (List.finRange 4).filter (· ∉ (([2] : List (Fin 4)) ++ [])) = [0, 1, 3] := by decide

/-- Operand axis 0 is paired with the result's offset axis 0, -/
theorem off_axis0 : ∀ (h0 : 0 < 4) (h : List.idxOf (⟨0, h0⟩ : Fin 4) ((List.finRange 4).filter (· ∉ (([2] : List (Fin 4)) ++ []))) < ([0, 1, 4] : List (Fin 5)).length),
    ([0, 1, 4] : List (Fin 5))[List.idxOf (⟨0, h0⟩ : Fin 4) ((List.finRange 4).filter (· ∉ (([2] : List (Fin 4)) ++ [])))]'h = 0 := by decide
/-- operand axis 1 with offset axis 1, -/
theorem off_axis1 : ∀ (h1 : 1 < 4) (h : List.idxOf (⟨1, h1⟩ : Fin 4) ((List.finRange 4).filter (· ∉ (([2] : List (Fin 4)) ++ []))) < ([0, 1, 4] : List (Fin 5)).length),
    ([0, 1, 4] : List (Fin 5))[List.idxOf (⟨1, h1⟩ : Fin 4) ((List.finRange 4).filter (· ∉ (([2] : List (Fin 4)) ++ [])))]'h = 1 := by decide
/-- and operand axis 3 with offset axis 4. -/
theorem off_axis3 : ∀ (h3 : 3 < 4) (h : List.idxOf (⟨3, h3⟩ : Fin 4) ((List.finRange 4).filter (· ∉ (([2] : List (Fin 4)) ++ []))) < ([0, 1, 4] : List (Fin 5)).length),
    ([0, 1, 4] : List (Fin 5))[List.idxOf (⟨3, h3⟩ : Fin 4) ((List.finRange 4).filter (· ∉ (([2] : List (Fin 4)) ++ [])))]'h = 4 := by decide

/-- Those dimension numbers, for an operand [A, B, N, D], start indices [R, C, 1] and a result [A, B, R, C, D];
    their conditions `wf` are decided on a program's literal shapes. -/
abbrev rowsDims (A B N D R C : Nat)
    (wf : GatherDims.WF ⟨4, ![A, B, N, D]⟩ ⟨3, ![R, C, 1]⟩ ⟨5, ![A, B, R, C, D]⟩ [0, 1, 4] [2] [] [2] [] 2 ![A, B, 1, D]) :
    GatherDims ⟨4, ![A, B, N, D]⟩ ⟨3, ![R, C, 1]⟩ ⟨5, ![A, B, R, C, D]⟩ where
  offsetDims := [0, 1, 4]
  collapsedSliceDims := [2]
  operandBatchingDims := []
  startIndicesBatchingDims := []
  startIndexMap := [2]
  indexVectorDim := 2
  sliceSizes := ![A, B, 1, D]
  wf := wf

/-- THE GATHER READ AT (a, b, r, q, e): the operand at (a, b, n, e), `n` the start index `idx[r, q, 0]` read signed
    and clamped into [0, N - 1]. -/
theorem gather_rows_apply {A B N D R C w : Nat} (hN : 0 < N)
    (wf : GatherDims.WF ⟨4, ![A, B, N, D]⟩ ⟨3, ![R, C, 1]⟩ ⟨5, ![A, B, R, C, D]⟩ [0, 1, 4] [2] [] [2] [] 2 ![A, B, 1, D])
    (x : (⟨4, ![A, B, N, D]⟩ : Shape).Idx → α) (idx : IVec ⟨3, ![R, C, 1]⟩ w)
    (a : Fin A) (b : Fin B) (r : Fin R) (q : Fin C) (e : Fin D) :
    Host.gather (rowsDims A B N D R C wf) x idx (ix5 a b r q e)
      = x (ix4 a b (⟨min (idx (ix3 r q (0 : Fin 1))).toInt.toNat (N - 1), by omega⟩ : Fin N) e) := by
  unfold Host.gather
  refine congrArg x (funext fun k => Fin.ext ?_)
  show (rowsDims A B N D R C wf).start (ix5 a b r q e) idx k + (rowsDims A B N D R C wf).batchCoord (ix5 a b r q e) k
      + (rowsDims A B N D R C wf).offCoord (ix5 a b r q e) k = _
  rw [GatherDims.batchCoord_eq_zero _ _ _ List.not_mem_nil, Nat.add_zero]
  -- an axis other than 2 is not the gathered axis: its start is 0 and it carries one of the result's offset coordinates
  have notTwo : ∀ (n : Nat) (hn : n < 4), n ≠ 2 → (⟨n, hn⟩ : Fin 4) ∉ ([2] : List (Fin 4)) :=
    fun n hn hne h => hne (congrArg Fin.val (List.mem_singleton.mp h))
  match k with
  | ⟨0, h0⟩ =>
    unfold GatherDims.start GatherDims.offCoord
    rw [dif_neg (show (⟨0, h0⟩ : Fin 4) ∉ (rowsDims A B N D R C wf).startIndexMap from notTwo 0 h0 (by decide)),
      dif_pos (show (⟨0, h0⟩ : Fin 4) ∈ (rowsDims A B N D R C wf).sKept from
        (GatherDims.mem_sKept _ _).mpr ⟨notTwo 0 h0 (by decide), List.not_mem_nil⟩)]
    rw [Nat.zero_add]
    exact congrArg (fun z : Fin 5 => (ix5 a b r q e z).val) (off_axis0 h0 _)
  | ⟨1, h1⟩ =>
    unfold GatherDims.start GatherDims.offCoord
    rw [dif_neg (show (⟨1, h1⟩ : Fin 4) ∉ (rowsDims A B N D R C wf).startIndexMap from notTwo 1 h1 (by decide)),
      dif_pos (show (⟨1, h1⟩ : Fin 4) ∈ (rowsDims A B N D R C wf).sKept from
        (GatherDims.mem_sKept _ _).mpr ⟨notTwo 1 h1 (by decide), List.not_mem_nil⟩)]
    rw [Nat.zero_add]
    exact congrArg (fun z : Fin 5 => (ix5 a b r q e z).val) (off_axis1 h1 _)
  | ⟨2, h2⟩ =>
    have hmem : (⟨2, h2⟩ : Fin 4) ∈ (rowsDims A B N D R C wf).startIndexMap := List.mem_singleton.mpr rfl
    have hcol : (⟨2, h2⟩ : Fin 4) ∈ (rowsDims A B N D R C wf).collapsedSliceDims := List.mem_singleton.mpr rfl
    rw [GatherDims.offCoord_eq_zero _ _ _ (fun h => ((GatherDims.mem_sKept _ _).mp h).1 hcol), Nat.add_zero]
    unfold GatherDims.start
    rw [dif_pos hmem]
    have hsi : (rowsDims A B N D R C wf).siIdx (ix5 a b r q e)
        ⟨List.idxOf (⟨2, h2⟩ : Fin 4) (rowsDims A B N D R C wf).startIndexMap, List.idxOf_lt_length_iff.2 hmem⟩
        = ix3 r q (0 : Fin 1) := by
      funext c; refine Fin.ext ?_
      match c with
      | ⟨0, _⟩ => rfl
      | ⟨1, _⟩ => rfl
      | ⟨2, _⟩ => rfl
    rw [hsi]
    rfl
  | ⟨3, h3⟩ =>
    unfold GatherDims.start GatherDims.offCoord
    rw [dif_neg (show (⟨3, h3⟩ : Fin 4) ∉ (rowsDims A B N D R C wf).startIndexMap from notTwo 3 h3 (by decide)),
      dif_pos (show (⟨3, h3⟩ : Fin 4) ∈ (rowsDims A B N D R C wf).sKept from
        (GatherDims.mem_sKept _ _).mpr ⟨notTwo 3 h3 (by decide), List.not_mem_nil⟩)]
    rw [Nat.zero_add]
    exact congrArg (fun z : Fin 5 => (ix5 a b r q e z).val) (off_axis3 h3 _)

end Cert.LibGatherRows
-- ==== Proof.RefValue.lean ====
/-
  The reference, read at an index: its result array is `costDiff left right`.

  At (0, d, c, h, w) the reference multiplies a mask by a difference. Its integer side computes the shifted
  row `idx[d, h] = h + -(-128 + d)`, the word of `h + 128 - d` (`shifted_row`). That row is never
  negative, so the negative-index correction `select(idx < 0, idx + 256, idx)` leaves it alone
  (`start_index`); it is at most 255, so the gather's clamp into [0, 255] leaves it alone too, and the
  gathered element is the padded right array at row `h + 128 - d` (`gathered_apply`, over
  `padded_apply`: the pad keeps `right` on rows below 128 and puts the converted integer 0 on the rest).
  The mask `(idx < 128)` converted to a float is the number 1 when `h < d` and 0 otherwise (`mask_apply`).
  The broadcasts and the final transpose only move coordinates. So the element is
  `mask * (left[0,c,h,w] - rightPad[c, h+128-d, w])`, which is `cost` by `mask_mul`.
-/
import proofs.«159724_j61495341744708_1_alg».proof.Proof.Gen.ReferenceIdeal.Read
import proofs.«159724_j61495341744708_1_alg».proof.Proof.Spec
import proofs.«159724_j61495341744708_1_alg».proof.Proof.Words
import proofs.«159724_j61495341744708_1_alg».proof.Proof.LibPadIdx
import proofs.«159724_j61495341744708_1_alg».proof.Proof.LibGatherRows
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Cert.CostDiff

/-- The shifted row `idx[d, h]` is the word of `h + 128 - d`. -/
theorem shifted_row (d h : Fin 128) :
    val_main_v10 (F := Ideal) (ix2 d h) = BitVec.ofNat 32 (h.val + 128 - d.val) := by
  rw [val_main_v10_apply, val_main_v8_apply, val_main_v6_apply, val_main_v5_apply, val_main_v9_apply, val_main_v7_apply,
    val_main_v3_apply, val_main_v2_apply, val_main_v1_apply, val_main_c_apply, val_main_v0_apply]
  exact Words.shifted_row d.val d.isLt h.val h.isLt

/-- The gather's start index at (d, h, 0): the shifted row is not negative, so the correction for negative
    indices leaves it as it is. -/
theorem start_index (d h : Fin 128) :
    val_main_v16 (F := Ideal) (ix3 d h (0 : Fin 1)) = BitVec.ofNat 32 (h.val + 128 - d.val) := by
  have hd := d.isLt
  have hh := h.isLt
  have e : idx_main_v16 (ix3 d h (0 : Fin 1)) = ix2 d h :=
    funext fun a => by match a with | ⟨0, _⟩ => rfl | ⟨1, _⟩ => rfl
  rw [val_main_v16_apply, e, val_main_v15_apply, val_main_v12_apply, val_main_v11_apply, val_main_c_1_apply, shifted_row,
    Words.not_neg _ (by omega), select_zero]

/-- The mask at (d, h), as a number: 1 when `h < d`, 0 otherwise. -/
theorem mask_apply (d h : Fin 128) :
    val_main_v20 (F := Ideal) (ix2 d h) = ((((if h.val < d.val then 1#1 else 0#1 : BitVec 1).toNat : ℕ) : ℝ) : EReal) := by
  rw [val_main_v20_apply, val_main_v19_apply, val_main_v18_apply, val_main_c_3_apply, shifted_row,
    Words.reference_mask d.val d.isLt h.val h.isLt]
  rfl

/-- The padded right array at (0, c, r, w): `right`'s row `r` below 128, zero from 128 on. -/
theorem padded_apply (x1 : Arg) (c : Fin 16) (r : Fin 256) (w : Fin 256) :
    val_main_v4 (F := Ideal) x1 (ix4 (0 : Fin 1) c r w) = rightPad x1 c r w := by
  unfold val_main_v4 rightPad
  by_cases hr : r.val < 128
  · rw [dif_pos hr]
    exact LibPadIdx.pad_high_apply_inside _ _ _ x1 _ _ _ (fun a => by fin_cases a <;> rfl) (fun a => by fin_cases a <;> rfl)
      (ix4 (0 : Fin 1) c r w) (ix4 (0 : Fin 1) c (⟨r.val, hr⟩ : Fin 128) w)
      (fun a => by match a with | ⟨0, _⟩ => rfl | ⟨1, _⟩ => rfl | ⟨2, _⟩ => rfl | ⟨3, _⟩ => rfl)
  · rw [dif_neg hr]
    refine (LibPadIdx.pad_high_apply_beyond _ _ _ x1 _ _ _ (fun a => by fin_cases a <;> rfl) (fun a => by fin_cases a <;> rfl)
      (ix4 (0 : Fin 1) c r w) (⟨2, by decide⟩ : Fin 4) (by show 128 ≤ r.val; omega)).trans ?_
    show ((((0#32 : BitVec 32).toInt : ℤ) : ℝ) : EReal) = 0
    simp

/-- The gathered array at (0, c, d, h, w): the padded right array at row `h + 128 - d` (inside [0, 255], so
    the gather's clamp does nothing). -/
theorem gathered_apply (x1 : Arg) (c : Fin 16) (d h : Fin 128) (w : Fin 256) :
    val_main_v17 (F := Ideal) x1 (ix5 (0 : Fin 1) c d h w) = rightPad x1 c (shiftRow d h) w := by
  have hd := d.isLt
  have hh := h.isLt
  unfold val_main_v17
  refine (LibGatherRows.gather_rows_apply (N := 256) (by decide)
    gather_S1x16x256x256_S128x128x1_S1x16x128x128x256_014_2_n_n_2_2_1161256_wf (val_main_v4 (F := Ideal) x1)
    (val_main_v16 (F := Ideal)) (0 : Fin 1) c d h w).trans ?_
  rw [padded_apply]
  refine congrArg (fun r => rightPad x1 c r w) (Fin.ext ?_)
  show min (val_main_v16 (F := Ideal) (ix3 d h (0 : Fin 1))).toInt.toNat (256 - 1) = h.val + 128 - d.val
  rw [start_index, Words.toInt_toNat _ (by omega)]
  omega

/-- THE REFERENCE'S RESULT is `costDiff` of its two arguments. -/
theorem result_eq (x0 x1 : Arg) : val_main_v27 (F := Ideal) x0 x1 = costDiff x0 x1 := by
  funext j
  obtain ⟨z, d, c, h, w, rfl⟩ : ∃ (z : Fin 1) (d : Fin 128) (c : Fin 16) (h : Fin 128) (w : Fin 256), j = ix5 z d c h w :=
    ⟨j 0, j 1, j 2, j 3, j 4, eq_ix5 j⟩
  obtain rfl : z = 0 := Subsingleton.elim _ _
  have e1 : idx_main_v21 (idx_main_v25 (idx_main_v27 (ix5 (0 : Fin 1) d c h w))) = ix2 d h :=
    funext fun a => by match a with | ⟨0, _⟩ => rfl | ⟨1, _⟩ => rfl
  have e2 : idx_main_v22 (idx_main_v23 (idx_main_v27 (ix5 (0 : Fin 1) d c h w))) = ix4 (0 : Fin 1) c h w :=
    funext fun a => by match a with | ⟨0, _⟩ => rfl | ⟨1, _⟩ => rfl | ⟨2, _⟩ => rfl | ⟨3, _⟩ => rfl
  have e3 : idx_main_v27 (ix5 (0 : Fin 1) d c h w) = ix5 (0 : Fin 1) c d h w :=
    funext fun a => by match a with | ⟨0, _⟩ => rfl | ⟨1, _⟩ => rfl | ⟨2, _⟩ => rfl | ⟨3, _⟩ => rfl | ⟨4, _⟩ => rfl
  rw [val_main_v27_apply, val_main_v26_apply, val_main_v25_apply, val_main_v21_apply, val_main_v24_apply, val_main_v23_apply,
    val_main_v22_apply, e1, e2, e3, mask_apply, gathered_apply]
  show ((((if h.val < d.val then 1#1 else 0#1 : BitVec 1).toNat : ℕ) : ℝ) : EReal)
      * (x0 (ix4 (0 : Fin 1) c h w) - rightPad x1 c (shiftRow d h) w) = cost x0 x1 d c h w
  rw [mask_mul]
  rfl

end Cert.ReferenceIdeal.RefValue

end
-- ==== Proof.lean ====
/-
  The cost-difference kernel against its reference, on the extended reals.

  Both programs take two images `left`, `right` ([1, 16, 128, 256]) and return, for each disparity `d` in [0, 128),
  the left image minus the right image shifted up by `128 - d` rows, with 0 on the rows the shift pushes past the
  bottom edge:

      out[0, d, c, h, w] = left[0, c, h, w] - right[0, c, h + 128 - d, w]   if h < d,      0   otherwise

  (`Cert.CostDiff.costDiff`, Proof/Spec.lean; when `h < d` the row `h + 128 - d` is below 128).

  The kernel runs one grid point per disparity: it reads a 128-row slab of the zero-padded right image starting at
  row `128 - d`, subtracts it from the left image, SELECTS the difference where `h < d` and 0 elsewhere, and writes
  block `d` of the output (Proof/KernelBody.lean, KernelEntry.lean, KernelArray.lean, KernelRun.lean). The reference
  GATHERS rows `h + 128 - d` of the zero-padded right image, subtracts, and MULTIPLIES by the condition `h < d` as
  a number, 1 or 0 (Proof/RefValue.lean). The two agree because `1 * x = x` and `0 * x = 0` for every extended
  real `x` — the infinite ones included — so nothing is asked of the inputs.

  The three frames are the generated ones (the reference's is its generated run with the result dropped); the
  idealization rewrote no operation, so `preserves` is `True`; `algebraic` pairs the kernel's run with the
  reference's, both ending at `costDiff` of arguments that agree.
-/
import proofs.«159724_j61495341744708_1_alg».proof.Defs
import proofs.«159724_j61495341744708_1_alg».proof.Proof.Gen.Kernel
import proofs.«159724_j61495341744708_1_alg».proof.Proof.Gen.Kernel.Skeleton
import proofs.«159724_j61495341744708_1_alg».proof.Proof.Gen.Kernel.Launch
import proofs.«159724_j61495341744708_1_alg».proof.Proof.Gen.Kernel.Points
import proofs.«159724_j61495341744708_1_alg».proof.Proof.Gen.Kernel.Frame
import proofs.«159724_j61495341744708_1_alg».proof.Proof.Gen.KernelIdeal
import proofs.«159724_j61495341744708_1_alg».proof.Proof.Gen.KernelIdeal.Skeleton
import proofs.«159724_j61495341744708_1_alg».proof.Proof.Gen.KernelIdeal.Launch
import proofs.«159724_j61495341744708_1_alg».proof.Proof.Gen.KernelIdeal.Points
import proofs.«159724_j61495341744708_1_alg».proof.Proof.Gen.KernelIdeal.Frame
import proofs.«159724_j61495341744708_1_alg».proof.Proof.Gen.ReferenceIdeal
import proofs.«159724_j61495341744708_1_alg».proof.Proof.Gen.ReferenceIdeal.Run
import proofs.«159724_j61495341744708_1_alg».proof.Proof.Gen.ReferenceIdeal.Read
import proofs.«159724_j61495341744708_1_alg».proof.Proof.Gen.Pre_finite_inputs
import proofs.«159724_j61495341744708_1_alg».proof.Proof.KernelRun
import proofs.«159724_j61495341744708_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at `costDiff left right` and so does the reference's, of
    arguments that agree. -/
theorem algebraic : Cert.algebraic_KernelIdeal_ReferenceIdeal := by
  intro m ρ m' ρ' _ hagree
  refine ⟨fun c => Cert.CostDiff.costDiff (Cert.KernelIdeal.Blocks.left m c) (Cert.KernelIdeal.Blocks.right m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq (F := Ideal) _ _).trans ?_
  rw [Cert.ReferenceIdeal.RefValue.result_eq, (hagree c).1, (hagree c).2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
